-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S32000x512 : Shape := ⟨2, ![32000, 512]⟩
abbrev S2x512 : Shape := ⟨2, ![2, 512]⟩
abbrev S2 : Shape := ⟨1, ![2]⟩
abbrev S_ : Shape := ⟨0, ![]⟩

class Facts : Prop where
  bcast_S_S32000x512 : S_.BroadcastsInDim S32000x512 (![] : Fin 0 → Fin S32000x512.rank)
  reducesTo_S32000x512_S_d0_1 : S32000x512.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_
  bcast_S_S2 : S_.BroadcastsInDim S2 (![] : Fin 0 → Fin S2.rank)
  reducesTo_S2_S_d0 : S2.ReducesTo [0] S_

variable [Facts]

def fn {F : FTy → Type} [FloatOps F] (main_arg0 : IVec S32x2048 32) (main_arg1 : FVec F S32000x512 .f32) (main_arg2 : FVec F S2x512 .f32) (main_arg3 : FVec F S2 .f32) : IVec S_ 1 :=
  let main_v0 : FVec F S32000x512 .f32 := Host.absf main_arg1
  let main_cst : FVec F S_ .f32 := constant S_ .f32 0x7F800000#32
  let main_v1 : FVec F S32000x512 .f32 := broadcastInDim S32000x512 ![] bcast_S_S32000x512 main_cst
  let main_v2 : IVec S32000x512 1 := cmpf .olt main_v0 main_v1
  let main_c : IVec S_ 1 := constantI S_ 1 1#1
  let main_v3 : IVec S_ 1 := (fun x v => Host.reduce IntOp.andi x v reducesTo_S32000x512_S_d0_1 h_S_) main_v2 main_c
  let main_v4 : FVec F S2x512 .f32 := Host.absf main_arg2
  let main_cst_0 : FVec F S_ .f32 := constant S_ .f32 0x7F800000#32
  let main_v5 : FVec F S2x512 .f32 := broadcastInDim S2x512 ![] bcast_S_S2x512 main_cst_0
  let main_v6 : IVec S2x512 1 := cmpf .olt main_v4 main_v5
  let main_c_1 : IVec S_ 1 := constantI S_ 1 1#1
  let main_v7 : IVec S_ 1 := (fun x v => Host.reduce IntOp.andi x v reducesTo_S2x512_S_d0_1 h_S_) main_v6 main_c_1
  let main_v8 : IVec S_ 1 := andi main_v3 main_v7
  let main_v9 : FVec F S2 .f32 := Host.absf main_arg3
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Kernel.lean ====
abbrev S32x2048 : Shape := ⟨2, ![32, 2048]⟩
abbrev S32000x512 : Shape := ⟨2, ![32000, 512]⟩
abbrev S2x512 : Shape := ⟨2, ![2, 512]⟩
abbrev S2 : Shape := ⟨1, ![2]⟩
abbrev S_ : Shape := ⟨0, ![]⟩
abbrev S32x2048x1 : Shape := ⟨3, ![32, 2048, 1]⟩
abbrev S32x2048x512 : Shape := ⟨3, ![32, 2048, 512]⟩
abbrev S512x2 : Shape := ⟨2, ![512, 2]⟩
abbrev S32x2 : Shape := ⟨2, ![32, 2]⟩
abbrev S8x2048x512 : Shape := ⟨3, ![8, 2048, 512]⟩
abbrev S8x2 : Shape := ⟨2, ![8, 2]⟩
abbrev S8x1x512 : Shape := ⟨3, ![8, 1, 512]⟩
abbrev S8x1x2048 : Shape := ⟨3, ![8, 1, 2048]⟩
abbrev S8x1 : Shape := ⟨2, ![8, 1]⟩
abbrev S8x1x1 : Shape := ⟨3, ![8, 1, 1]⟩
abbrev S8x512 : Shape := ⟨2, ![8, 512]⟩
abbrev S1x2 : Shape := ⟨2, ![1, 2]⟩

abbrev nBuf : Space → Nat
  | .hbm => 17
  | .vmem => 6
  | .smem => 0
  | _ => 0

abbrev bufTy : (tb : Table) → Fin (tcTables nBuf tb) → BufTy
  | .hbm, ⟨0, _⟩ => ⟨S32x2048, .i32⟩
  | .hbm, ⟨1, _⟩ => ⟨S32000x512, .f32⟩
  | .hbm, ⟨2, _⟩ => ⟨S2x512, .f32⟩
  | .hbm, ⟨3, _⟩ => ⟨S2, .f32⟩
  | .hbm, ⟨4, _⟩ => ⟨S32000x512, .bf16⟩
  | .hbm, ⟨5, _⟩ => ⟨S_, .i32⟩
  | .hbm, ⟨6, _⟩ => ⟨S32x2048, .i32⟩
  | .hbm, ⟨7, _⟩ => ⟨S32x2048, .i1⟩
  | .hbm, ⟨8, _⟩ => ⟨S_, .i32⟩
  | .hbm, ⟨9, _⟩ => ⟨S32x2048, .i32⟩
  | .hbm, ⟨10, _⟩ => ⟨S32x2048, .i32⟩
  | .hbm, ⟨11, _⟩ => ⟨S32x2048, .i32⟩
  | .hbm, ⟨12, _⟩ => ⟨S32x2048x1, .i32⟩
  | .hbm, ⟨13, _⟩ => ⟨S32x2048x512, .bf16⟩
  | .hbm, ⟨14, _⟩ => ⟨S2x512, .bf16⟩
  | .hbm, ⟨15, _⟩ => ⟨S512x2, .bf16⟩
  | .hbm, ⟨16, _⟩ => ⟨S32x2, .f32⟩
  | .local _ .vmem, ⟨0, _⟩ => ⟨S8x2048x512, .bf16⟩
  | .local _ .vmem, ⟨1, _⟩ => ⟨S8x2048x512, .bf16⟩
  | .local _ .vmem, ⟨2, _⟩ => ⟨S512x2, .bf16⟩
  | .local _ .vmem, ⟨3, _⟩ => ⟨S2, .f32⟩
  | .local _ .vmem, ⟨4, _⟩ => ⟨S8x2, .f32⟩
  | .local _ .vmem, ⟨5, _⟩ => ⟨S8x2, .f32⟩
  | _, _ => ⟨S32x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  transposes_S2x512_S512x2_1_0 : S2x512.Transposes [1, 0] S512x2
  inb_S8x2048x512_S8x2048x512_0_0_0 : ∀ a, (![0, 0, 0] : Fin 3 → Nat) a + S8x2048x512.size a ≤ S8x2048x512.size a
  h_S8x2048x512 : 0 < S8x2048x512.numel
  shapeCasts_S8x2048x512_S8x2048x512 : S8x2048x512.ShapeCasts S8x2048x512
  slices_S8x2048x512_o0_0_0_S8x1x512 : S8x2048x512.Slices ![0, 0, 0] S8x1x512
  reduces_S8x1x2048_S8x1 : S8x1x2048.Reduces [2] S8x1
  shapeCasts_S8x1_S8x1x1 : S8x1.ShapeCasts S8x1x1
  broadcasts_S8x1x1_S8x1x2048 : S8x1x1.Broadcasts S8x1x2048
  shapeCasts_S8x1x512_S8x512 : S8x1x512.ShapeCasts S8x512
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S2_S2_0 : ∀ a, (![0] : Fin 1 → Nat) a + S2.size a ≤ S2.size a
  h_S2 : 0 < S2.numel
  shapeCasts_S2_S1x2 : S2.ShapeCasts S1x2
  broadcasts_S1x2_S8x2 : S1x2.Broadcasts S8x2
  inb_S8x2_S8x2_0_0 : ∀ a, (![0, 0] : Fin 2 → Nat) a + S8x2.size a ≤ S8x2.size a
  h_S8x2 : 0 < S8x2.numel
  gather_S32000x512_S32x2048x1_S32x2048x512_2_0_n_n_0_2_1512_wf : GatherDims.WF S32000x512 S32x2048x1 S32x2048x512 [2] [0] [] [0] [] 2 ![1, 512]
  dot_S8x1x512_S8x2048x512_S8x1x2048_2_2_1_1_0_0_wf : DotDims.WF S8x1x512 S8x2048x512 S8x1x2048 [2] [2] [1] [1] [0] [0]
  dot_S8x1x2048_S8x2048x512_S8x1x512_2_1_1_2_0_0_wf : DotDims.WF S8x1x2048 S8x2048x512 S8x1x512 [2] [1] [1] [2] [0] [0]
  dot_S8x512_S512x2_S8x2_1_0_0_1_n_n_wf : DotDims.WF S8x512 S512x2 S8x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x512.size a ≤ S32x2048x512.size a
  hwx0_0 : ∀ i : grid0.Coords, EltTy.bits .bf16 = 32 ∨ (Rect.block (s := S32x2048x512) S8x2048x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2.size a ≤ S512x2.size a
  hwx0_1 : ∀ i : grid0.Coords, EltTy.bits .bf16 = 32 ∨ (Rect.block (s := S512x2) S512x2.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2.size a ≤ S2.size a
  hwx0_2 : ∀ i : grid0.Coords, EltTy.bits .f32 = 32 ∨ (Rect.block (s := S2) S2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2.size a ≤ S32x2.size a
  hwx0_3 : ∀ i : grid0.Coords, EltTy.bits .f32 = 32 ∨ (Rect.block (s := S32x2) S8x2.size (cc0_transform_3 i) (hinb0_3 i)).WholeWords (EltTy.packing .f32)

variable [Facts₀]

def gather_S32000x512_S32x2048x1_S32x2048x512_2_0_n_n_0_2_1512 : GatherDims S32000x512 S32x2048x1 S32x2048x512 where
  offsetDims := [2]
  collapsedSliceDims := [0]
  operandBatchingDims := []
  startIndicesBatchingDims := []
  startIndexMap := [0]
  indexVectorDim := 2
  sliceSizes := ![1, 512]
  wf := gather_S32000x512_S32x2048x1_S32x2048x512_2_0_n_n_0_2_1512_wf
def dot_S8x1x512_S8x2048x512_S8x1x2048_2_2_1_1_0_0 : DotDims S8x1x512 S8x2048x512 S8x1x2048 where
  lhsContracting := [2]
  rhsContracting := [2]
  lhsNonContracting := [1]
  rhsNonContracting := [1]
  lhsBatch := [0]
  rhsBatch := [0]
  wf := dot_S8x1x512_S8x2048x512_S8x1x2048_2_2_1_1_0_0_wf
def dot_S8x1x2048_S8x2048x512_S8x1x512_2_1_1_2_0_0 : DotDims S8x1x2048 S8x2048x512 S8x1x512 where
  lhsContracting := [2]
  rhsContracting := [1]
  lhsNonContracting := [1]
  rhsNonContracting := [2]
  lhsBatch := [0]
  rhsBatch := [0]
  wf := dot_S8x1x2048_S8x2048x512_S8x1x512_2_1_1_2_0_0_wf
def dot_S8x512_S512x2_S8x2_1_0_0_1_n_n : DotDims S8x512 S512x2 S8x2 where
  lhsContracting := [1]
  rhsContracting := [0]
  lhsNonContracting := [0]
  rhsNonContracting := [1]
  lhsBatch := []
  rhsBatch := []
  wf := dot_S8x512_S512x2_S8x2_1_0_0_1_n_n_wf

abbrev win0_0 : Pipeline.Window sig grid0 :=
  Pipeline.Window.ofSpec (Memref.whole main_v7) S8x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S8x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048 : Shape := ⟨2, ![32, 2048]⟩
abbrev S32000x512 : Shape := ⟨2, ![32000, 512]⟩
abbrev S2x512 : Shape := ⟨2, ![2, 512]⟩
abbrev S2 : Shape := ⟨1, ![2]⟩
abbrev S_ : Shape := ⟨0, ![]⟩
abbrev S32x2048x1 : Shape := ⟨3, ![32, 2048, 1]⟩
abbrev S32x2048x512 : Shape := ⟨3, ![32, 2048, 512]⟩
abbrev S32x2048x2048 : Shape := ⟨3, ![32, 2048, 2048]⟩
abbrev S32x1x512 : Shape := ⟨3, ![32, 1, 512]⟩
abbrev S32x512 : Shape := ⟨2, ![32, 512]⟩
abbrev S512x2 : Shape := ⟨2, ![512, 2]⟩
abbrev S32x2 : Shape := ⟨2, ![32, 2]⟩
abbrev S1x2 : Shape := ⟨2, ![1, 2]⟩

abbrev nBuf : Space → Nat
  | .hbm => 36
  | .vmem => 0
  | .smem => 0
  | _ => 0

abbrev bufTy : (tb : Table) → Fin (tcTables nBuf tb) → BufTy
  | .hbm, ⟨0, _⟩ => ⟨S32x2048, .i32⟩
  | .hbm, ⟨1, _⟩ => ⟨S32000x512, .f32⟩
  | .hbm, ⟨2, _⟩ => ⟨S2x512, .f32⟩
  | .hbm, ⟨3, _⟩ => ⟨S2, .f32⟩
  | .hbm, ⟨4, _⟩ => ⟨S_, .i32⟩
  | .hbm, ⟨5, _⟩ => ⟨S32x2048, .i32⟩
  | .hbm, ⟨6, _⟩ => ⟨S32x2048, .i1⟩
  | .hbm, ⟨7, _⟩ => ⟨S_, .i32⟩
  | .hbm, ⟨8, _⟩ => ⟨S32x2048, .i32⟩
  | .hbm, ⟨9, _⟩ => ⟨S32x2048, .i32⟩
  | .hbm, ⟨10, _⟩ => ⟨S32x2048, .i32⟩
  | .hbm, ⟨11, _⟩ => ⟨S32x2048x1, .i32⟩
  | .hbm, ⟨12, _⟩ => ⟨S32x2048x512, .f32⟩
  | .hbm, ⟨13, _⟩ => ⟨S32x2048x2048, .f32⟩
  | .hbm, ⟨14, _⟩ => ⟨S_, .f32⟩
  | .hbm, ⟨15, _⟩ => ⟨S32x2048, .f32⟩
  | .hbm, ⟨16, _⟩ => ⟨S_, .f32⟩
  | .hbm, ⟨17, _⟩ => ⟨S32x2048, .f32⟩
  | .hbm, ⟨18, _⟩ => ⟨S32x2048, .f32⟩
  | .hbm, ⟨19, _⟩ => ⟨S32x2048x1, .f32⟩
  | .hbm, ⟨20, _⟩ => ⟨S32x2048x2048, .f32⟩
  | .hbm, ⟨21, _⟩ => ⟨S32x2048x2048, .f32⟩
  | .hbm, ⟨22, _⟩ => ⟨S32x2048x2048, .f32⟩
  | .hbm, ⟨23, _⟩ => ⟨S_, .f32⟩
  | .hbm, ⟨24, _⟩ => ⟨S32x2048, .f32⟩
  | .hbm, ⟨25, _⟩ => ⟨S32x2048x1, .f32⟩
  | .hbm, ⟨26, _⟩ => ⟨S32x2048x2048, .f32⟩
  | .hbm, ⟨27, _⟩ => ⟨S32x2048x2048, .f32⟩
  | .hbm, ⟨28, _⟩ => ⟨S32x2048x512, .f32⟩
  | .hbm, ⟨29, _⟩ => ⟨S32x1x512, .f32⟩
  | .hbm, ⟨30, _⟩ => ⟨S32x512, .f32⟩
  | .hbm, ⟨31, _⟩ => ⟨S512x2, .f32⟩
  | .hbm, ⟨32, _⟩ => ⟨S32x2, .f32⟩
  | .hbm, ⟨33, _⟩ => ⟨S1x2, .f32⟩
  | .hbm, ⟨34, _⟩ => ⟨S32x2, .f32⟩
  | .hbm, ⟨35, _⟩ => ⟨S32x2, .f32⟩
  | _, _ => ⟨S32x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  reducesTo_S32x2048x2048_S32x2048_d2 : S32x2048x2048.ReducesTo [2] S32x2048
  h_S_ : 0 < S_.numel
  bcast_S32x2048x1_S32x2048x2048_0_1_2 : S32x2048x1.BroadcastsInDim S32x2048x2048 (![0, 1, 2] : Fin 3 → Fin S32x2048x2048.rank)
  slices_S32x2048x512_S32x1x512_0_0_0 : S32x2048x512.Slices ![0, 0, 0] S32x1x512
  shapeCasts_S32x1x512_S32x512 : S32x1x512.ShapeCasts S32x512
  transposes_S2x512_S512x2_1_0 : S2x512.Transposes [1, 0] S512x2
  bcast_S2_S1x2_1 : S2.BroadcastsInDim S1x2 (![1] : Fin 1 → Fin S1x2.rank)
  bcast_S1x2_S32x2_0_1 : S1x2.BroadcastsInDim S32x2 (![0, 1] : Fin 2 → Fin S32x2.rank)
  gather_S32000x512_S32x2048x1_S32x2048x512_2_0_n_n_0_2_1512_wf : GatherDims.WF S32000x512 S32x2048x1 S32x2048x512 [2] [0] [] [0] [] 2 ![1, 512]
  dot_S32x2048x512_S32x2048x512_S32x2048x2048_2_2_1_1_0_0_wf : DotDims.WF S32x2048x512 S32x2048x512 S32x2048x2048 [2] [2] [1] [1] [0] [0]
  dot_S32x2048x2048_S32x2048x512_S32x2048x512_2_1_1_2_0_0_wf : DotDims.WF S32x2048x2048 S32x2048x512 S32x2048x512 [2] [1] [1] [2] [0] [0]
  dot_S32x512_S512x2_S32x2_1_0_0_1_n_n_wf : DotDims.WF S32x512 S512x2 S32x2 [1] [0] [0] [1] [] []

variable [Facts₀]

def gather_S32000x512_S32x2048x1_S32x2048x512_2_0_n_n_0_2_1512 : GatherDims S32000x512 S32x2048x1 S32x2048x512 where
  offsetDims := [2]
  collapsedSliceDims := [0]
  operandBatchingDims := []
  startIndicesBatchingDims := []
  startIndexMap := [0]
  indexVectorDim := 2
  sliceSizes := ![1, 512]
  wf := gather_S32000x512_S32x2048x1_S32x2048x512_2_0_n_n_0_2_1512_wf
def dot_S32x2048x512_S32x2048x512_S32x2048x2048_2_2_1_1_0_0 : DotDims S32x2048x512 S32x2048x512 S32x2048x2048 where
  lhsContracting := [2]
  rhsContracting := [2]
  lhsNonContracting := [1]
  rhsNonContracting := [1]
  lhsBatch := [0]
  rhsBatch := [0]
  wf := dot_S32x2048x512_S32x2048x512_S32x2048x2048_2_2_1_1_0_0_wf
def dot_S32x2048x2048_S32x2048x512_S32x2048x512_2_1_1_2_0_0 : DotDims S32x2048x2048 S32x2048x512 S32x2048x512 where
  lhsContracting := [2]
  rhsContracting := [1]
  lhsNonContracting := [1]
  rhsNonContracting := [2]
  lhsBatch := [0]
  rhsBatch := [0]
  wf := dot_S32x2048x2048_S32x2048x512_S32x2048x512_2_1_1_2_0_0_wf
def dot_S32x512_S512x2_S32x2_1_0_0_1_n_n : DotDims S32x512 S512x2 S32x2 where
  lhsContracting := [1]
  rhsContracting := [0]
  lhsNonContracting := [0]
  rhsNonContracting := [1]
  lhsBatch := []
  rhsBatch := []
  wf := dot_S32x512_S512x2_S32x2_1_0_0_1_n_n_wf

class Facts : Prop extends Facts₀ where

variable [Facts]
-- ==== Proof.Spec.lean ====
/-
  The function both programs compute, over the extended reals.

  For one batch row, write x s d for the embedding of the token at position s (2048 positions, 512 features).
  Only the FIRST query position is ever pooled, so only one row of the attention matrix matters:
    score s   = Σ_d x 0 d · x s d                    (the first position's embedding against every position's)
    rowMax    = max(-∞, max over s of score s)        (both programs fold the maximum from -∞ and then take the
                                                      maximum with -∞ once more)
    unnorm s  = exp (score s − rowMax)
    weight s  = unnorm s / Σ_s' unnorm s'             (the softmax row)
    pooled d  = Σ_s weight s · x s d
    logit     = Σ_d pooled d · w d + β                (one classifier row w and its bias β)
  Every sum is a finite sum in the extended reals, where addition is commutative and associative, so no order of
  summation is recorded; exp and the quotient are the extended-real ones of the ideal instance. The result array is
  this number at each (batch row, class).
-/
import Idealize.ShloMosaic.PureOps.Ideal
import Idealize.ShloMosaic.Lib.ValueIdx

noncomputable section

namespace Cert.AttnPool

open Idealize.ShloMosaic Idealize.ShloMosaic.ValueIdx

/-- The extended real the f32 word 0xFF800000 denotes: the value both programs start a row maximum from. -/
abbrev negInf : EReal := Ideal.ofBits .f32 0xFF800000#32

/-- The first of the 2048 positions: the one query whose output is pooled. -/
abbrev key0 : Fin 2048 := ⟨0, by decide⟩

/-- The one coordinate of an axis of extent one. -/
abbrev u0 : Fin 1 := ⟨0, Nat.one_pos⟩

/-- The first position's embedding against position `s`'s. -/
def score (x : Fin 2048 → Fin 512 → EReal) (s : Fin 2048) : EReal := ∑ d : Fin 512, x key0 d * x s d

/-- The maximum of a row of scores, folded from -∞, and once more against -∞. -/
def rowMax (sc : Fin 2048 → EReal) : EReal := max negInf ((Finset.univ : Finset (Fin 2048)).fold max negInf sc)

/-- The exponential of a score shifted by the row's maximum. -/
def unnorm (sc : Fin 2048 → EReal) (s : Fin 2048) : EReal := Ideal.exp (sc s - rowMax sc)

/-- The softmax weight of position `s`. -/
def weight (sc : Fin 2048 → EReal) (s : Fin 2048) : EReal := Ideal.div (unnorm sc s) (∑ s' : Fin 2048, unnorm sc s')

/-- Feature `d` of the attention output at the first position. -/
def pooled (x : Fin 2048 → Fin 512 → EReal) (d : Fin 512) : EReal := ∑ s : Fin 2048, weight (score x) s * x s d

/-- The pooled vector against one classifier row, plus its bias. -/
def logit (x : Fin 2048 → Fin 512 → EReal) (w : Fin 512 → EReal) (β : EReal) : EReal := (∑ d : Fin 512, pooled x d * w d) + β

/-- The logit of batch row `b` and class `c`, from the embedded sequence `X` (batch, position, feature), the transposed
    classifier weight `WT` (feature, class) and the bias `B`. -/
def entry (X : (⟨3, ![32, 2048, 512]⟩ : Shape).Idx → EReal) (WT : (⟨2, ![512, 2]⟩ : Shape).Idx → EReal)
    (B : (⟨1, ![2]⟩ : Shape).Idx → EReal) (b : Fin 32) (c : Fin 2) : EReal :=
  logit (fun s d => X (ix3 b s d)) (fun d => WT (ix2 d c)) (B (ix1 c))

/-- The whole result array. -/
def G (X : (⟨3, ![32, 2048, 512]⟩ : Shape).Idx → EReal) (WT : (⟨2, ![512, 2]⟩ : Shape).Idx → EReal)
    (B : (⟨1, ![2]⟩ : Shape).Idx → EReal) : (⟨2, ![32, 2]⟩ : Shape).Idx → EReal :=
  fun j => entry X WT B (j 0) (j 1)

theorem G_apply (X : (⟨3, ![32, 2048, 512]⟩ : Shape).Idx → EReal) (WT : (⟨2, ![512, 2]⟩ : Shape).Idx → EReal)
    (B : (⟨1, ![2]⟩ : Shape).Idx → EReal) (b : Fin 32) (c : Fin 2) : G X WT B (ix2 b c) = entry X WT B b c := rfl

end Cert.AttnPool

end
-- ==== Proof.RefRead.lean ====
/-
  The reference's result, read one operation at a time at an index, is the specified function `G` of the gathered
  embeddings, the transposed classifier weight and the bias.

  The reference computes the whole 2048 × 2048 attention matrix per batch row and slices query position 0 afterwards.
  Every operation between the scores and the slice acts on a query row independently (the maximum, the sum and the
  second product contract the KEY axis only), so the sliced row is the softmax row of position 0's scores: each stage
  is read at (batch b, query q, key s) and the slice then sets q to the first position.
-/
import proofs.«124404_j1494648619255_2_alg».proof.Proof.Gen.ReferenceIdeal.Read
import proofs.«124404_j1494648619255_2_alg».proof.Proof.Spec
import Idealize.ShloMosaic.PureOps.Reduce

noncomputable section

namespace Cert.AttnPool.Ref

open Cert.ReferenceIdeal Cert.ReferenceIdeal.Gen Cert.ReferenceIdeal.Read Cert.AttnPool
open Idealize.ShloMosaic Idealize.ShloMosaic.ValueIdx

variable (x0 : (⟨S32x2048, .i32⟩ : BufTy).Contents (Elt Ideal)) (x1 : (⟨S32000x512, .f32⟩ : BufTy).Contents (Elt Ideal))
variable (x2 : (⟨S2x512, .f32⟩ : BufTy).Contents (Elt Ideal)) (x3 : (⟨S2, .f32⟩ : BufTy).Contents (Elt Ideal))

/-- The score of query `q` against key `s` in batch row `b`: the two gathered embeddings' inner product. -/
theorem score_at (b : Fin 32) (q s : Fin 2048) :
    val_main_v7 (F := Ideal) x0 x1 (ix3 b q s)
      = ∑ d : Fin 512, val_main_v6 (F := Ideal) x0 x1 (ix3 b q d) * val_main_v6 (F := Ideal) x0 x1 (ix3 b s d) := by
  rw [val_main_v7_apply]
  refine Finset.sum_congr rfl fun d _ => ?_
  have el : lidx_main_v7 (ix3 b q s) d = ix3 b q d := funext fun a => Fin.ext (by
    match a with | ⟨0, _⟩ => rfl | ⟨1, _⟩ => rfl | ⟨2, _⟩ => rfl)
  have er : ridx_main_v7 (ix3 b q s) d = ix3 b s d := funext fun a => Fin.ext (by
    match a with | ⟨0, _⟩ => rfl | ⟨1, _⟩ => rfl | ⟨2, _⟩ => rfl)
  rw [el, er]

/-- The maximum over the keys of query `q`'s scores, from -∞ and once more against -∞. -/
theorem max_at (b : Fin 32) (q : Fin 2048) :
    val_main_v10 (F := Ideal) x0 x1 (ix2 b q) = rowMax (fun s => val_main_v7 (F := Ideal) x0 x1 (ix3 b q s)) := by
  have h : S32x2048x2048.Reduces [2] S32x2048 := by decide
  rw [val_main_v10_apply, val_main_v9_apply, val_main_cst_1_apply]
  unfold val_main_v8
  rw [Host.reduce_eq_fold_single FloatOps.maximumf _ _ reducesTo_S32x2048x2048_S32x2048_d2 h h_S_, val_main_cst_apply]
  have e : (val_main_v7 (F := Ideal) x0 x1 ∘ h.lift (ix2 b q)) = fun s => val_main_v7 (F := Ideal) x0 x1 (ix3 b q s) :=
    funext fun s => congrArg (val_main_v7 (F := Ideal) x0 x1) (funext fun a => Fin.ext (by
      match a with | ⟨0, _⟩ => rfl | ⟨1, _⟩ => rfl | ⟨2, _⟩ => rfl))
  rw [e]
  rfl

/-- The shifted exponential at (b, q, s). -/
theorem exp_at (b : Fin 32) (q s : Fin 2048) :
    val_main_v14 (F := Ideal) x0 x1 (ix3 b q s)
      = Ideal.exp (val_main_v7 (F := Ideal) x0 x1 (ix3 b q s) - val_main_v10 (F := Ideal) x0 x1 (ix2 b q)) := by
  rw [val_main_v14_apply, val_main_v13_apply, val_main_v12_apply, val_main_v11_apply]
  have e : idx_main_v11 (idx_main_v12 (ix3 b q s)) = ix2 b q := funext fun a => Fin.ext (by
    match a with | ⟨0, _⟩ => rfl | ⟨1, _⟩ => rfl)
  rw [e]
  rfl

/-- The sum over the keys of the shifted exponentials (the host's sum starts from the zero word, which is 0). -/
theorem sum_at (b : Fin 32) (q : Fin 2048) :
    val_main_v15 (F := Ideal) x0 x1 (ix2 b q) = ∑ s : Fin 2048, val_main_v14 (F := Ideal) x0 x1 (ix3 b q s) := by
  rw [val_main_v15_apply, val_main_cst_2_apply, Ideal.ofBits_def, Ideal.ofBits_zero_f32, zero_add]
  refine Finset.sum_congr rfl fun s _ => ?_
  exact congrArg (val_main_v14 (F := Ideal) x0 x1) (funext fun a => Fin.ext (by
    match a with | ⟨0, _⟩ => rfl | ⟨1, _⟩ => rfl | ⟨2, _⟩ => rfl))

/-- The softmax weight at (b, q, s). -/
theorem weight_at (b : Fin 32) (q s : Fin 2048) :
    val_main_v18 (F := Ideal) x0 x1 (ix3 b q s)
      = Ideal.div (val_main_v14 (F := Ideal) x0 x1 (ix3 b q s)) (val_main_v15 (F := Ideal) x0 x1 (ix2 b q)) := by
  rw [val_main_v18_apply, val_main_v17_apply, val_main_v16_apply]
  have e : idx_main_v16 (idx_main_v17 (ix3 b q s)) = ix2 b q := funext fun a => Fin.ext (by
    match a with | ⟨0, _⟩ => rfl | ⟨1, _⟩ => rfl)
  rw [e]
  rfl

/-- The attention output at (b, q, d): the weights against the values over the keys. -/
theorem out_at (b : Fin 32) (q : Fin 2048) (d : Fin 512) :
    val_main_v19 (F := Ideal) x0 x1 (ix3 b q d)
      = ∑ s : Fin 2048, val_main_v18 (F := Ideal) x0 x1 (ix3 b q s) * val_main_v6 (F := Ideal) x0 x1 (ix3 b s d) := by
  rw [val_main_v19_apply]
  refine Finset.sum_congr rfl fun s _ => ?_
  have el : lidx_main_v19 (ix3 b q d) s = ix3 b q s := funext fun a => Fin.ext (by
    match a with | ⟨0, _⟩ => rfl | ⟨1, _⟩ => rfl | ⟨2, _⟩ => rfl)
  have er : ridx_main_v19 (ix3 b q d) s = ix3 b s d := funext fun a => Fin.ext (by
    match a with | ⟨0, _⟩ => rfl | ⟨1, _⟩ => rfl | ⟨2, _⟩ => rfl)
  rw [el, er]

/-- The slice and the reshape pick query position 0: the pooled vector of batch row `b`. -/
theorem pooled_at (b : Fin 32) (d : Fin 512) :
    val_main_v21 (F := Ideal) x0 x1 (ix2 b d) = val_main_v19 (F := Ideal) x0 x1 (ix3 b key0 d) := by
  rw [val_main_v21_apply, val_main_v20_apply]
  refine congrArg (val_main_v19 (F := Ideal) x0 x1) (funext fun a => Fin.ext ?_)
  have hb : b.val < 32 := b.isLt
  have hd : d.val < 512 := d.isLt
  match a with
  | ⟨0, _⟩ => show (b.val * 512 + d.val) / 512 = b.val; omega
  | ⟨1, _⟩ => rfl
  | ⟨2, _⟩ => show (b.val * 512 + d.val) % 512 = d.val; omega

/-- The classifier product at (b, c). -/
theorem dot_at (b : Fin 32) (c : Fin 2) :
    val_main_v23 (F := Ideal) x0 x1 x2 (ix2 b c)
      = ∑ d : Fin 512, val_main_v21 (F := Ideal) x0 x1 (ix2 b d) * val_main_v22 (F := Ideal) x2 (ix2 d c) := by
  rw [val_main_v23_apply]
  refine Finset.sum_congr rfl fun d _ => ?_
  have el : lidx_main_v23 (ix2 b c) d = ix2 b d := funext fun a => Fin.ext (by
    match a with | ⟨0, _⟩ => rfl | ⟨1, _⟩ => rfl)
  have er : ridx_main_v23 (ix2 b c) d = ix2 d c := funext fun a => Fin.ext (by
    match a with | ⟨0, _⟩ => rfl | ⟨1, _⟩ => rfl)
  rw [el, er]

/-- The bias, broadcast over the batch rows. -/
theorem bias_at (b : Fin 32) (c : Fin 2) : val_main_v25 (F := Ideal) x3 (ix2 b c) = x3 (ix1 c) := by
  rw [val_main_v25_apply, val_main_v24_apply]
  exact congrArg x3 (funext fun a => Fin.ext (by match a with | ⟨0, _⟩ => rfl))

/-- THE REFERENCE IS `G`: its result array is the specified function of the gathered embeddings, the transposed
    classifier weight and the bias. -/
theorem result_eq :
    val_main_v26 (F := Ideal) x0 x1 x2 x3 = G (val_main_v6 (F := Ideal) x0 x1) (val_main_v22 (F := Ideal) x2) x3 := by
  funext j
  obtain ⟨b, c, rfl⟩ : ∃ (b : Fin 32) (c : Fin 2), j = ix2 b c := ⟨j 0, j 1, eq_ix2 j⟩
  rw [val_main_v26_apply, dot_at, bias_at, G_apply]
  simp only [pooled_at, out_at, weight_at, sum_at, exp_at, max_at, score_at]
  rfl

end Cert.AttnPool.Ref

end
-- ==== Proof.Payload.lean ====
/-
  What the kernel body stores, read at an index: for the block of 8 batch rows a grid point holds, the value stored
  at (row p, class c) is the specified `logit` of row p's 2048 × 512 slab of the block, column c of the classifier
  block and entry c of the bias.

  The body is four stages, each read here at explicit coordinates:
    scores : the slab's first position against every position (a batched product whose left operand is the slice
             of the block at position 0);
    softmax: the row maximum folded from -∞, the shifted exponentials, their sum, the quotient — the maximum and the
             sum are kept as [8,1] columns and re-broadcast along the 2048 keys;
    pooled : the weights against the block again, over the keys;
    logits : the pooled vector against the classifier block, plus the bias broadcast over the rows.
  A change of float format is the identity on extended reals, and a product accumulated into the zero splat is the
  plain sum over the contracted axis.
-/
import proofs.«124404_j1494648619255_2_alg».proof.Proof.Gen.KernelIdeal.Skeleton
import proofs.«124404_j1494648619255_2_alg».proof.Proof.Spec
import Idealize.ShloMosaic.Lib.Pipeline.Value
import Idealize.ShloMosaic.Lib.ValueIdx
import Idealize.ShloMosaic.PureOps.Ideal.Laws

noncomputable section

namespace Cert.AttnPool.Ker

open Cert.KernelIdeal Cert.KernelIdeal.Gen Cert.AttnPool
open Idealize.ShloMosaic Idealize.ShloMosaic.ValueIdx

/-- The three products' dimension records: query·keys (batch 0; contract features), weights·values (batch 0;
    contract keys), pooled·classifier (no batch; contract features). -/
abbrev D1 := dot_S8x1x512_S8x2048x512_S8x1x2048_2_2_1_1_0_0
abbrev D2 := dot_S8x1x2048_S8x2048x512_S8x1x512_2_1_1_2_0_0
abbrev D3 := dot_S8x512_S512x2_S8x2_1_0_0_1_n_n

/-! ## The operand indices of the three products -/

theorem lhs1_0 (i : S8x1x2048.Idx) (q : D1.contr.Idx) : (D1.lhsIdx i q 0).val = (i 0).val := by
  unfold DotDims.lhsIdx
  rw [dif_pos (show (0 : Fin S8x1x512.rank) ∈ D1.lhsBatch by decide)]
  rfl
theorem lhs1_1 (i : S8x1x2048.Idx) (q : D1.contr.Idx) : (D1.lhsIdx i q 1).val = (i 1).val := by
  unfold DotDims.lhsIdx
  rw [dif_neg (show ¬(1 : Fin S8x1x512.rank) ∈ D1.lhsBatch by decide), dif_pos (show (1 : Fin S8x1x512.rank) ∈ D1.lhsNonContracting by decide)]
  rfl
theorem lhs1_2 (i : S8x1x2048.Idx) (q : D1.contr.Idx) : (D1.lhsIdx i q 2).val = (q ⟨0, by decide⟩).val :=
  D1.lhsIdx_val_of_single rfl i q
theorem rhs1_0 (i : S8x1x2048.Idx) (q : D1.contr.Idx) : (D1.rhsIdx i q 0).val = (i 0).val := by
  unfold DotDims.rhsIdx
  rw [dif_pos (show (0 : Fin S8x2048x512.rank) ∈ D1.rhsBatch by decide)]
  rfl
theorem rhs1_1 (i : S8x1x2048.Idx) (q : D1.contr.Idx) : (D1.rhsIdx i q 1).val = (i 2).val := by
  unfold DotDims.rhsIdx
  rw [dif_neg (show ¬(1 : Fin S8x2048x512.rank) ∈ D1.rhsBatch by decide), dif_pos (show (1 : Fin S8x2048x512.rank) ∈ D1.rhsNonContracting by decide)]
  rfl
theorem rhs1_2 (i : S8x1x2048.Idx) (q : D1.contr.Idx) : (D1.rhsIdx i q 2).val = (q ⟨0, by decide⟩).val :=
  D1.rhsIdx_val_of_single rfl i q

theorem lhs2_0 (i : S8x1x512.Idx) (q : D2.contr.Idx) : (D2.lhsIdx i q 0).val = (i 0).val := by
  unfold DotDims.lhsIdx
  rw [dif_pos (show (0 : Fin S8x1x2048.rank) ∈ D2.lhsBatch by decide)]
  rfl
theorem lhs2_1 (i : S8x1x512.Idx) (q : D2.contr.Idx) : (D2.lhsIdx i q 1).val = (i 1).val := by
  unfold DotDims.lhsIdx
  rw [dif_neg (show ¬(1 : Fin S8x1x2048.rank) ∈ D2.lhsBatch by decide), dif_pos (show (1 : Fin S8x1x2048.rank) ∈ D2.lhsNonContracting by decide)]
  rfl
theorem lhs2_2 (i : S8x1x512.Idx) (q : D2.contr.Idx) : (D2.lhsIdx i q 2).val = (q ⟨0, by decide⟩).val :=
  D2.lhsIdx_val_of_single rfl i q
theorem rhs2_0 (i : S8x1x512.Idx) (q : D2.contr.Idx) : (D2.rhsIdx i q 0).val = (i 0).val := by
  unfold DotDims.rhsIdx
  rw [dif_pos (show (0 : Fin S8x2048x512.rank) ∈ D2.rhsBatch by decide)]
  rfl
theorem rhs2_1 (i : S8x1x512.Idx) (q : D2.contr.Idx) : (D2.rhsIdx i q 1).val = (q ⟨0, by decide⟩).val :=
  D2.rhsIdx_val_of_single rfl i q
theorem rhs2_2 (i : S8x1x512.Idx) (q : D2.contr.Idx) : (D2.rhsIdx i q 2).val = (i 2).val := by
  unfold DotDims.rhsIdx
  rw [dif_neg (show ¬(2 : Fin S8x2048x512.rank) ∈ D2.rhsBatch by decide), dif_pos (show (2 : Fin S8x2048x512.rank) ∈ D2.rhsNonContracting by decide)]
  rfl

theorem lhs3_0 (i : S8x2.Idx) (q : D3.contr.Idx) : (D3.lhsIdx i q 0).val = (i 0).val := by
  unfold DotDims.lhsIdx
  rw [dif_neg (show ¬(0 : Fin S8x512.rank) ∈ D3.lhsBatch by decide), dif_pos (show (0 : Fin S8x512.rank) ∈ D3.lhsNonContracting by decide)]
  rfl
theorem lhs3_1 (i : S8x2.Idx) (q : D3.contr.Idx) : (D3.lhsIdx i q 1).val = (q ⟨0, by decide⟩).val :=
  D3.lhsIdx_val_of_single rfl i q
theorem rhs3_0 (i : S8x2.Idx) (q : D3.contr.Idx) : (D3.rhsIdx i q 0).val = (q ⟨0, by decide⟩).val :=
  D3.rhsIdx_val_of_single rfl i q
theorem rhs3_1 (i : S8x2.Idx) (q : D3.contr.Idx) : (D3.rhsIdx i q 1).val = (i 1).val := by
  unfold DotDims.rhsIdx
  rw [dif_neg (show ¬(1 : Fin S512x2.rank) ∈ D3.rhsBatch by decide), dif_pos (show (1 : Fin S512x2.rank) ∈ D3.rhsNonContracting by decide)]
  rfl

/-! ## The body's four stages, as the printed payload composes them -/

/-- Position 0's embedding against every position's, per row of the block. -/
def scoresV (x : FVec Ideal S8x2048x512 .bf16) : FVec Ideal S8x1x2048 .f32 :=
  matmul D1 none (extractStridedSlice S8x1x512 ![0, 0, 0] x slices_S8x2048x512_o0_0_0_S8x1x512) x
    (constant (F := Ideal) S8x1x2048 .f32 0x00000000#32)

/-- The row maxima, as an [8,1] column. -/
def maxV (sc : FVec Ideal S8x1x2048 .f32) : FVec Ideal S8x1 .f32 :=
  maximumf (broadcast S8x1 (Scalar.ofBits (F := Ideal) .f32 0xFF800000#32))
    (multiReduction .maximumf [2] S8x1 sc 0xFF800000#32 reduces_S8x1x2048_S8x1 (.inl rfl) rfl)

/-- The shifted exponentials. -/
def expV (sc : FVec Ideal S8x1x2048 .f32) : FVec Ideal S8x1x2048 .f32 :=
  exp (subf sc (broadcastTo S8x1x2048 (shapeCast S8x1x1 (maxV sc) shapeCasts_S8x1_S8x1x1) broadcasts_S8x1x1_S8x1x2048))

/-- The softmax rows (narrowed to the product's input format, which changes nothing here). -/
def attnV (sc : FVec Ideal S8x1x2048 .f32) : FVec Ideal S8x1x2048 .bf16 :=
  truncf .bf16 (divf (expV sc) (broadcastTo S8x1x2048 (shapeCast S8x1x1
    (multiReduction .add [2] S8x1 (expV sc) 0x00000000#32 reduces_S8x1x2048_S8x1 (.inl rfl) rfl) shapeCasts_S8x1_S8x1x1)
    broadcasts_S8x1x1_S8x1x2048)) bitsLt_bf16_f32

/-- The weights against the block, over the keys; the unit axis dropped. -/
def pooledV (a : FVec Ideal S8x1x2048 .bf16) (x : FVec Ideal S8x2048x512 .bf16) : FVec Ideal S8x512 .bf16 :=
  truncf .bf16 (shapeCast S8x512 (matmul D2 none a x (constant (F := Ideal) S8x1x512 .f32 0x00000000#32))
    shapeCasts_S8x1x512_S8x512) bitsLt_bf16_f32

/-- The pooled rows against the classifier block, plus the bias over the rows. -/
def logitsV (o : FVec Ideal S8x512 .bf16) (w : FVec Ideal S512x2 .bf16) (β : FVec Ideal S2 .f32) : FVec Ideal S8x2 .f32 :=
  addf (matmul D3 none o (shapeCast S512x2 w shapeCasts_S512x2_S512x2) (constant (F := Ideal) S8x2 .f32 0x00000000#32))
    (broadcastTo S8x2 (shapeCast S1x2 β shapeCasts_S2_S1x2) broadcasts_S1x2_S8x2)

/-- The printed payload is the four stages composed (its lines, regrouped). -/
theorem pay_eq (x0 : Vec Ideal S8x2048x512 .bf16) (w : Vec Ideal S512x2 .bf16) (β : Vec Ideal S2 .f32) :
    k0_pay1 (F := Ideal) x0 w β
      = logitsV (pooledV (attnV (scoresV (shapeCast S8x2048x512 x0 shapeCasts_S8x2048x512_S8x2048x512)))
          (shapeCast S8x2048x512 x0 shapeCasts_S8x2048x512_S8x2048x512)) w β := rfl

/-! ## Each stage at an index -/

/-- A column [8,1] viewed [8,1,1] and broadcast along the 2048 keys reads the column's entry of the row. -/
theorem column_at {α : Type} (v : S8x1.Idx → α) (p : Fin 8) (s : Fin 2048) :
    broadcastTo S8x1x2048 (shapeCast S8x1x1 v shapeCasts_S8x1_S8x1x1) broadcasts_S8x1x1_S8x1x2048 (ix3 p u0 s) = v (ix2 p u0) := by
  refine (broadcastTo_apply _ broadcasts_S8x1x1_S8x1x2048 (ix3 p u0 s) (ix3 p u0 u0) (fun a => ?_)).trans
    (shapeCast_apply v shapeCasts_S8x1_S8x1x1 (ix3 p u0 u0) (ix2 p u0) ?_)
  · match a with
    | ⟨0, _⟩ => show p.val = if (8 : Nat) = 1 then 0 else p.val; rw [if_neg (by decide)]
    | ⟨1, _⟩ => show (0 : Nat) = if (1 : Nat) = 1 then 0 else 0; rw [if_pos rfl]
    | ⟨2, _⟩ => show (0 : Nat) = if (1 : Nat) = 1 then 0 else s.val; rw [if_pos rfl]
  · rw [Shape.rowMajor_val_two, Shape.rowMajor_val_three]
    show p.val * 1 + 0 = (p.val * 1 + 0) * 1 + 0
    omega

/-- The score of position `s` in row `p` of the block. -/
theorem scores_at (x : FVec Ideal S8x2048x512 .bf16) (p : Fin 8) (s : Fin 2048) :
    scoresV x (ix3 p u0 s) = ∑ d : Fin 512, x (ix3 p key0 d) * x (ix3 p s d) := by
  unfold scoresV
  simp only [matmul]
  rw [Ideal.matmul_constant_zero_apply, ← Equiv.sum_comp (contrEquiv1 D1 512 rfl rfl).symm]
  refine Finset.sum_congr rfl fun k _ => ?_
  have hk := contrEquiv1_symm_val D1 512 rfl rfl k
  have el : D1.lhsIdx (ix3 p u0 s) ((contrEquiv1 D1 512 rfl rfl).symm k) = ix3 p u0 k := funext fun a => Fin.ext (by
    match a with
    | ⟨0, _⟩ => exact lhs1_0 _ _
    | ⟨1, _⟩ => exact lhs1_1 _ _
    | ⟨2, _⟩ => exact (lhs1_2 _ _).trans hk)
  have er : D1.rhsIdx (ix3 p u0 s) ((contrEquiv1 D1 512 rfl rfl).symm k) = ix3 p s k := funext fun a => Fin.ext (by
    match a with
    | ⟨0, _⟩ => exact rhs1_0 _ _
    | ⟨1, _⟩ => exact rhs1_1 _ _
    | ⟨2, _⟩ => exact (rhs1_2 _ _).trans hk)
  rw [el, er]
  refine congrArg (· * x (ix3 p s k)) ?_
  exact extractStridedSlice_apply ![0, 0, 0] x slices_S8x2048x512_o0_0_0_S8x1x512 (ix3 p u0 k) (ix3 p key0 k) (fun a => by
    match a with
    | ⟨0, _⟩ => show p.val = 0 + p.val; omega
    | ⟨1, _⟩ => show (0 : Nat) = 0 + 0; rfl
    | ⟨2, _⟩ => show k.val = 0 + k.val; omega)

/-- The row maximum of row `p`. -/
theorem max_at (sc : FVec Ideal S8x1x2048 .f32) (p : Fin 8) :
    maxV sc (ix2 p u0) = rowMax (fun s => sc (ix3 p u0 s)) := by
  unfold maxV
  show max negInf (multiReduction .maximumf [2] S8x1 sc 0xFF800000#32 reduces_S8x1x2048_S8x1 (.inl rfl) rfl (ix2 p u0)) = _
  refine congrArg (max negInf) ((Ideal.multiReduction_maximumf_single sc 0xFF800000#32 reduces_S8x1x2048_S8x1 (.inl rfl) rfl (ix2 p u0)).trans ?_)
  have e : (sc ∘ reduces_S8x1x2048_S8x1.lift (ix2 p u0)) = fun s => sc (ix3 p u0 s) :=
    funext fun s => congrArg sc (funext fun a => Fin.ext (by
      match a with | ⟨0, _⟩ => rfl | ⟨1, _⟩ => rfl | ⟨2, _⟩ => rfl))
  rw [e]
  rfl

/-- The shifted exponential at (p, s). -/
theorem exp_at (sc : FVec Ideal S8x1x2048 .f32) (p : Fin 8) (s : Fin 2048) :
    expV sc (ix3 p u0 s) = unnorm (fun s' => sc (ix3 p u0 s')) s := by
  unfold expV
  show Ideal.exp (sc (ix3 p u0 s) - broadcastTo S8x1x2048 (shapeCast S8x1x1 (maxV sc) shapeCasts_S8x1_S8x1x1) broadcasts_S8x1x1_S8x1x2048 (ix3 p u0 s)) = _
  rw [column_at, max_at]
  rfl

/-- The softmax weight at (p, s). -/
theorem attn_at (sc : FVec Ideal S8x1x2048 .f32) (p : Fin 8) (s : Fin 2048) :
    attnV sc (ix3 p u0 s) = weight (fun s' => sc (ix3 p u0 s')) s := by
  unfold attnV
  show Ideal.div (expV sc (ix3 p u0 s)) (broadcastTo S8x1x2048 (shapeCast S8x1x1
    (multiReduction .add [2] S8x1 (expV sc) 0x00000000#32 reduces_S8x1x2048_S8x1 (.inl rfl) rfl) shapeCasts_S8x1_S8x1x1)
    broadcasts_S8x1x1_S8x1x2048 (ix3 p u0 s)) = _
  rw [column_at, exp_at]
  refine congrArg (Ideal.div _) ((Ideal.multiReduction_add_single (expV sc) 0x00000000#32 reduces_S8x1x2048_S8x1 (.inl rfl) rfl (ix2 p u0)).trans ?_)
  refine Finset.sum_congr rfl fun s' _ => ?_
  refine (congrArg (expV sc) (funext fun a => Fin.ext (by
    match a with | ⟨0, _⟩ => rfl | ⟨1, _⟩ => rfl | ⟨2, _⟩ => rfl))).trans (exp_at sc p s')

/-- Feature `d` of row `p`'s pooled vector. -/
theorem pooled_at (a : FVec Ideal S8x1x2048 .bf16) (x : FVec Ideal S8x2048x512 .bf16) (p : Fin 8) (d : Fin 512) :
    pooledV a x (ix2 p d) = ∑ s : Fin 2048, a (ix3 p u0 s) * x (ix3 p s d) := by
  unfold pooledV
  show shapeCast S8x512 (matmul D2 none a x (constant (F := Ideal) S8x1x512 .f32 0x00000000#32)) shapeCasts_S8x1x512_S8x512 (ix2 p d) = _
  refine (shapeCast_apply _ shapeCasts_S8x1x512_S8x512 (ix2 p d) (ix3 p u0 d) (by
    rw [Shape.rowMajor_val_three, Shape.rowMajor_val_two]
    show (p.val * 1 + 0) * 512 + d.val = p.val * 512 + d.val
    omega)).trans ?_
  simp only [matmul]
  rw [Ideal.matmul_constant_zero_apply, ← Equiv.sum_comp (contrEquiv1 D2 2048 rfl rfl).symm]
  refine Finset.sum_congr rfl fun k _ => ?_
  have hk := contrEquiv1_symm_val D2 2048 rfl rfl k
  have el : D2.lhsIdx (ix3 p u0 d) ((contrEquiv1 D2 2048 rfl rfl).symm k) = ix3 p u0 k := funext fun a => Fin.ext (by
    match a with
    | ⟨0, _⟩ => exact lhs2_0 _ _
    | ⟨1, _⟩ => exact lhs2_1 _ _
    | ⟨2, _⟩ => exact (lhs2_2 _ _).trans hk)
  have er : D2.rhsIdx (ix3 p u0 d) ((contrEquiv1 D2 2048 rfl rfl).symm k) = ix3 p k d := funext fun a => Fin.ext (by
    match a with
    | ⟨0, _⟩ => exact rhs2_0 _ _
    | ⟨1, _⟩ => exact (rhs2_1 _ _).trans hk
    | ⟨2, _⟩ => exact rhs2_2 _ _)
  rw [el, er]

/-- The logit of row `p` and class `c`. -/
theorem logits_at (o : FVec Ideal S8x512 .bf16) (w : FVec Ideal S512x2 .bf16) (β : FVec Ideal S2 .f32) (p : Fin 8) (c : Fin 2) :
    logitsV o w β (ix2 p c) = (∑ d : Fin 512, o (ix2 p d) * w (ix2 d c)) + β (ix1 c) := by
  unfold logitsV
  rw [shapeCast_self]
  show matmul D3 none o w (constant (F := Ideal) S8x2 .f32 0x00000000#32) (ix2 p c)
    + broadcastTo S8x2 (shapeCast S1x2 β shapeCasts_S2_S1x2) broadcasts_S1x2_S8x2 (ix2 p c) = _
  have hb : broadcastTo S8x2 (shapeCast S1x2 β shapeCasts_S2_S1x2) broadcasts_S1x2_S8x2 (ix2 p c) = β (ix1 c) := by
    refine (broadcastTo_apply _ broadcasts_S1x2_S8x2 (ix2 p c) (ix2 u0 c) (fun a => ?_)).trans
      (shapeCast_apply β shapeCasts_S2_S1x2 (ix2 u0 c) (ix1 c) ?_)
    · match a with
      | ⟨0, _⟩ => show (0 : Nat) = if (1 : Nat) = 1 then 0 else p.val; rw [if_pos rfl]
      | ⟨1, _⟩ => show c.val = if (2 : Nat) = 1 then 0 else c.val; rw [if_neg (by decide)]
    · rw [Shape.rowMajor_val_one, Shape.rowMajor_val_two]
      show c.val = 0 * 2 + c.val
      omega
  rw [hb]
  refine congrArg (· + β (ix1 c)) ?_
  simp only [matmul]
  rw [Ideal.matmul_constant_zero_apply, ← Equiv.sum_comp (contrEquiv1 D3 512 rfl rfl).symm]
  refine Finset.sum_congr rfl fun k _ => ?_
  have hk := contrEquiv1_symm_val D3 512 rfl rfl k
  have el : D3.lhsIdx (ix2 p c) ((contrEquiv1 D3 512 rfl rfl).symm k) = ix2 p k := funext fun a => Fin.ext (by
    match a with
    | ⟨0, _⟩ => exact lhs3_0 _ _
    | ⟨1, _⟩ => exact (lhs3_1 _ _).trans hk)
  have er : D3.rhsIdx (ix2 p c) ((contrEquiv1 D3 512 rfl rfl).symm k) = ix2 k c := funext fun a => Fin.ext (by
    match a with
    | ⟨0, _⟩ => exact (rhs3_0 _ _).trans hk
    | ⟨1, _⟩ => exact rhs3_1 _ _)
  rw [el, er]

/-! ## The payload at an index -/

/-- THE BODY'S STORED VALUE at (row p, class c) is the specified logit of row p's slab of the loaded block, column c of
    the classifier block and entry c of the bias. -/
theorem pay_at (x0 : Vec Ideal S8x2048x512 .bf16) (w : Vec Ideal S512x2 .bf16) (β : Vec Ideal S2 .f32) (p : Fin 8) (c : Fin 2) :
    k0_pay1 (F := Ideal) x0 w β (ix2 p c)
      = logit (fun s d => x0 (ix3 p s d)) (fun d => w (ix2 d c)) (β (ix1 c)) := by
  rw [pay_eq, shapeCast_self, logits_at]
  simp only [pooled_at, attn_at, scores_at]
  rfl

end Cert.AttnPool.Ker

end
-- ==== Proof.KernelValue.lean ====
/-
  The kernel's result array after the run is the specified function `G` of the arrays the region finds: the
  embeddings gathered on the host, the transposed classifier weight, and the bias.

  Grid point t (of 4) holds batch rows 8t … 8t+7 of the embedded sequence (whole in the other two axes), the whole
  classifier block and the whole bias, and writes back rows 8t … 8t+7 of the result. The logit of a batch row depends
  on that row's slab only, so what point t writes back is block t of `G`; the four blocks tile the 32 rows, so the
  array ends at `G`. The host operations before the region only narrow the float format of the table and of the
  classifier weight (the identity on extended reals), normalise negative token ids, gather and transpose.
-/
import proofs.«124404_j1494648619255_2_alg».proof.Proof.Gen.KernelIdeal.Value
import proofs.«124404_j1494648619255_2_alg».proof.Proof.Payload
import proofs.«124404_j1494648619255_2_alg».proof.Proof.Spec
import Idealize.ShloMosaic.Lib.Pipeline.Value
import Idealize.ShloMosaic.Lib.StableHlo.Run
import Idealize.ShloMosaic.Lib.ValueIdx

noncomputable section

namespace Cert.AttnPool.KerValue

open Cert.KernelIdeal Cert.KernelIdeal.Gen Cert.AttnPool Cert.AttnPool.Ker
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the region finds -/

/-- The embedded sequence: the table (its format narrowed) gathered at the token ids, a negative id first moved up
    by the table's height. -/
def embedded (a0 : (⟨S32x2048, .i32⟩ : BufTy).Contents (Elt Ideal)) (a1 : (⟨S32000x512, .f32⟩ : BufTy).Contents (Elt Ideal)) :
    (⟨S32x2048x512, .bf16⟩ : BufTy).Contents (Elt Ideal) :=
  Host.gather gather_S32000x512_S32x2048x1_S32x2048x512_2_0_n_n_0_2_1512
    (truncf (F := Ideal) (s := S32000x512) (φ := .f32) .bf16 a1 bitsLt_bf16_f32)
    (broadcastInDim S32x2048x1 ![0, 1] bcast_S32x2048_S32x2048x1_0_1
      (select (cmpi .slt a0 (broadcastInDim S32x2048 ![] bcast_S_S32x2048 (constantI S_ 32 0#32)))
        (addi a0 (broadcastInDim S32x2048 ![] bcast_S_S32x2048 (constantI S_ 32 32000#32))) a0))

/-- The classifier weight, its format narrowed, transposed to (feature, class). -/
def classifierT (a2 : (⟨S2x512, .f32⟩ : BufTy).Contents (Elt Ideal)) : (⟨S512x2, .bf16⟩ : BufTy).Contents (Elt Ideal) :=
  transpose S512x2 [1, 0]
    (truncf (F := Ideal) (s := S2x512) (φ := .f32) .bf16 a2 bitsLt_bf16_f32)
    transposes_S2x512_S512x2_1_0

theorem V_main_v7 (c : Dev nD) :
    V m c main_v7 = embedded (m ((c : Thread nD τ).loc main_arg0)) (m ((c : Thread nD τ).loc main_arg1)) := by
  unfold V embedded; after_results

theorem V_main_v9 (c : Dev nD) : V m c main_v9 = classifierT (m ((c : Thread nD τ).loc main_arg2)) := by
  unfold V classifierT; after_results

/-! ## The windows' blocks at a point -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the embeddings' and the result's blocks move with the point along the batch
    axis only; the classifier block and the bias do not move. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem point_lt (t : Fin cfg0.N) : t.val < 4 := lt_of_lt_of_eq t.isLt N_0

/-- Batch row `p` of point `t`'s block is batch row 8t + p of the array. -/
def row (t : Fin cfg0.N) (p : Fin 8) : Fin 32 := ⟨t.val * 8 + p.val, by have := point_lt t; have := p.isLt; omega⟩

/-- Point `t`'s block of the embeddings, read at (p, s, d), is the array at (8t + p, s, d). -/
theorem read_emb (c : Dev nD) (t : Fin cfg0.N) (p : Fin 8) (s : Fin 2048) (d : Fin 512) :
    iblk m c 0 t (ix3 p s d) = V m c main_v7 (ix3 (row t p) s d) := by
  show V m c main_v7 (((cfg0.win 0).blk t).view.emb (ix3 p s d)) = _
  refine congrArg (V m c main_v7) (funext fun a => Fin.ext ?_)
  obtain ⟨e0, e1, e2, -⟩ := idx_facts t
  match a with
  | ⟨0, _⟩ => show win0_0.index t (0 : Fin 3) * 8 + 1 * p.val = t.val * 8 + p.val; omega
  | ⟨1, _⟩ => show win0_0.index t (1 : Fin 3) * 2048 + 1 * s.val = s.val; omega
  | ⟨2, _⟩ => show win0_0.index t (2 : Fin 3) * 512 + 1 * d.val = d.val; omega

/-- The classifier block is the whole transposed weight. -/
theorem read_cls (c : Dev nD) (t : Fin cfg0.N) (d : Fin 512) (k : Fin 2) :
    iblk m c 1 t (ix2 d k) = V m c main_v9 (ix2 d k) := by
  show V m c main_v9 (((cfg0.win 1).blk t).view.emb (ix2 d k)) = _
  refine congrArg (V m c main_v9) (funext fun a => Fin.ext ?_)
  obtain ⟨-, -, -, e3, e4, -⟩ := idx_facts t
  match a with
  | ⟨0, _⟩ => show win0_1.index t (0 : Fin 2) * 512 + 1 * d.val = d.val; omega
  | ⟨1, _⟩ => show win0_1.index t (1 : Fin 2) * 2 + 1 * k.val = k.val; omega

/-- The bias block is the whole bias. -/
theorem read_bias (c : Dev nD) (t : Fin cfg0.N) (k : Fin 2) :
    iblk m c 2 t (ix1 k) = V m c main_arg3 (ix1 k) := by
  show V m c main_arg3 (((cfg0.win 2).blk t).view.emb (ix1 k)) = _
  refine congrArg (V m c main_arg3) (funext fun a => Fin.ext ?_)
  obtain ⟨-, -, -, -, -, e5, -⟩ := idx_facts t
  match a with
  | ⟨0, _⟩ => show win0_2.index t (0 : Fin 1) * 2 + 1 * k.val = k.val; omega

/-- Entry (p, k) of the result's block at point `t` is entry (8t + p, k) of the array. -/
theorem emb_out (t : Fin cfg0.N) (p : Fin 8) (k : Fin 2) :
    ((cfg0.win 3).blk t).view.emb (ix2 p k) = ix2 (row t p) k := by
  refine funext fun a => Fin.ext ?_
  obtain ⟨-, -, -, -, -, -, e6, e7⟩ := idx_facts t
  match a with
  | ⟨0, _⟩ => show win0_3.index t (0 : Fin 2) * 8 + 1 * p.val = t.val * 8 + p.val; omega
  | ⟨1, _⟩ => show win0_3.index t (1 : Fin 2) * 2 + 1 * k.val = k.val; omega

/-! ## What a point writes back, and the array after the run -/

/-- Two functions on an 8 × 2 block agree when they agree at every (row, class). -/
theorem ext_8x2 {α : Type} {f g : S8x2.Idx → α} (h : ∀ (p : Fin 8) (k : Fin 2), f (ix2 p k) = g (ix2 p k)) : f = g :=
  funext fun y => by rw [eq_ix2 y]; exact h _ _

/-- WHAT POINT `t` WRITES BACK is block `t` of `G` of the arrays the region finds. -/
theorem flushed_eq (c : Dev nD) (t : Fin cfg0.N) :
    (dats m 0 c).flushed 3 t
      = ((cfg0.win 3).blk t).view.read (Elt Ideal) (G (V m c main_v7) (V m c main_v9) (V m c main_arg3)) := by
  rw [Cert.KernelIdeal.Value.flushed3]
  unfold out0_3
  rw [View.canon_unit_zero hz2]
  simp only [View.ld_unit_zero (S := S8x2048x512) hz3, View.ld_unit_zero (S := S512x2) hz2, View.ld_unit_zero (S := S2) hz1]
  refine ext_8x2 fun p k => ?_
  show k0_pay1 (F := Ideal) (iblk m c 0 t) (iblk m c 1 t) (iblk m c 2 t) (ix2 p k)
    = G (V m c main_v7) (V m c main_v9) (V m c main_arg3) (((cfg0.win 3).blk t).view.emb (ix2 p k))
  rw [emb_out, G_apply]
  refine (pay_at (iblk m c 0 t) (iblk m c 1 t) (iblk m c 2 t) p k).trans ?_
  unfold entry
  simp only [read_emb, read_cls, read_bias]

/-- An index of the result is in point `t`'s block iff each coordinate is in the block's range on its axis. -/
theorem mem_blk (t : Fin cfg0.N) (i : S32x2.Idx) :
    i ∈ ((cfg0.win 3).blk t).view.set ↔ ∀ a : Fin 2, win0_3.index t a * S8x2.size a ≤ (i a).val ∧ (i a).val < win0_3.index t a * S8x2.size a + S8x2.size a := by
  show i ∈ ((View.whole main_v10).slice (win0_3.rect t)).set ↔ _
  rw [View.set_slice_whole, Rect.mem_set_unit]
  exact Iff.rfl

/-- Every entry of the result is written back by the point that holds its batch row. -/
theorem cover (i : S32x2.Idx) : ∃ t : Fin cfg0.N, (cfg0.win 3).flush t = true ∧ i ∈ ((cfg0.win 3).blk t).view.set := by
  have hi0 : (i 0).val < 32 := (i 0).isLt
  have hi1 : (i 1).val < 2 := (i 1).isLt
  let t : Fin cfg0.N := ⟨(i 0).val / 8, lt_of_lt_of_eq (by omega : (i 0).val / 8 < 4) N_0.symm⟩
  refine ⟨t, flush0_3 t, ?_⟩
  rw [mem_blk]
  obtain ⟨-, -, -, -, -, -, e6, e7⟩ := idx_facts t
  have ht : t.val = (i 0).val / 8 := rfl
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 2 ≤ (i 1).val ∧ (i 1).val < win0_3.index t (1 : Fin 2) * 2 + 2; omega

/-- THE RESULT ARRAY after the run is `G` of the arrays the region finds. -/
theorem final (c : Dev nD) :
    (dats m 0 c).arrAt 3 cfg0.N = G (V m c main_v7) (V m c main_v9) (V m c main_arg3) :=
  (dats m 0 c).arrAt_eq_of_cover 3 (G (V m c main_v7) (V m c main_v9) (V m c main_arg3)) (fun t _ => flushed_eq m c t) cover

/-- The kernel's run: the result array at `G` of the embeddings gathered from the arguments, the transposed classifier
    weight and the bias; the arguments unchanged. -/
theorem run : θ_run defs (onTc (τ := τ) (main (F := Ideal))) ⟨m, fun _ => 0, ρ⟩ fun r => ∀ c : Dev nD,
      r.2.mem ((c : Thread nD τ).loc main_v10)
        = G (embedded (m ((c : Thread nD τ).loc main_arg0)) (m ((c : Thread nD τ).loc main_arg1)))
            (classifierT (m ((c : Thread nD τ).loc main_arg2))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by rw [V_main_v7, V_main_v9, V_main_arg3])), (h c).2⟩)
    (Cert.KernelIdeal.Value.run_blocks m ρ)

end Cert.AttnPool.KerValue

end
-- ==== Proof.lean ====
/-
  The certificate of the attention-pool kernel against its jnp reference.

  Both programs embed the tokens (a gather from the table), attend position 0 of every batch row to all 2048
  positions with an unscaled softmax, pool the attended values and apply a two-class linear classifier. The
  reference forms the whole 2048 × 2048 attention matrix and keeps query row 0; the kernel forms that one row only,
  8 batch rows per grid point. Over the extended reals the two are the same function `G` (Proof/Spec.lean) of the
  gathered embeddings, the transposed classifier weight and the bias:
    Proof/RefRead.lean      the reference's result is `G` (every stage acts on a query row independently);
    Proof/Payload.lean      the kernel body's stored value at (row, class) is `G`'s logit of the row's slab;
    Proof/KernelValue.lean  the four written-back blocks tile the result, which therefore ends at `G`.
  The kernel narrows the table and the classifier weight to a 16-bit format before the gather and the products; on
  extended reals a change of format is the identity, so the two programs' gathered embeddings and transposed weights
  are the same arrays (`embedded_eq`, `classifierT_eq` below). No algebraic law beyond the re-indexing of finite sums
  is used, so the finiteness precondition is never opened. The three frames are the generated ones (the reference's is
  its generated run with the result dropped); the idealization rewrote nothing, so `preserves` is `True`.
-/
import proofs.«124404_j1494648619255_2_alg».proof.Defs
import proofs.«124404_j1494648619255_2_alg».proof.Proof.Gen.Kernel
import proofs.«124404_j1494648619255_2_alg».proof.Proof.Gen.Kernel.Skeleton
import proofs.«124404_j1494648619255_2_alg».proof.Proof.Gen.Kernel.Launch
import proofs.«124404_j1494648619255_2_alg».proof.Proof.Gen.Kernel.Points
import proofs.«124404_j1494648619255_2_alg».proof.Proof.Gen.Kernel.Frame
import proofs.«124404_j1494648619255_2_alg».proof.Proof.Gen.KernelIdeal
import proofs.«124404_j1494648619255_2_alg».proof.Proof.Gen.KernelIdeal.Skeleton
import proofs.«124404_j1494648619255_2_alg».proof.Proof.Gen.KernelIdeal.Launch
import proofs.«124404_j1494648619255_2_alg».proof.Proof.Gen.KernelIdeal.Points
import proofs.«124404_j1494648619255_2_alg».proof.Proof.Gen.KernelIdeal.Frame
import proofs.«124404_j1494648619255_2_alg».proof.Proof.Gen.ReferenceIdeal
import proofs.«124404_j1494648619255_2_alg».proof.Proof.Gen.Pre_finite_inputs
import proofs.«124404_j1494648619255_2_alg».proof.Proof.Gen.KernelIdeal.Value
import proofs.«124404_j1494648619255_2_alg».proof.Proof.Gen.ReferenceIdeal.Run
import proofs.«124404_j1494648619255_2_alg».proof.Proof.Gen.ReferenceIdeal.Read
import proofs.«124404_j1494648619255_2_alg».proof.Proof.Spec
import proofs.«124404_j1494648619255_2_alg».proof.Proof.RefRead
import proofs.«124404_j1494648619255_2_alg».proof.Proof.KernelValue
import Idealize.ShloMosaic.Adequacy
import Idealize.ShloMosaic.Init

noncomputable section

namespace Cert.Proof

open Idealize.ShloMosaic Idealize.SL.Sem Cert.AttnPool

/-- The kernel's gathered embeddings are the reference's: the same gather at the same normalised token ids, from the
    table with its format narrowed, which on extended reals is the table. -/
theorem embedded_eq (a0 : (⟨Cert.KernelIdeal.S32x2048, .i32⟩ : BufTy).Contents (Elt Ideal))
    (a1 : (⟨Cert.KernelIdeal.S32000x512, .f32⟩ : BufTy).Contents (Elt Ideal)) :
    (KerValue.embedded a0 a1 : (⟨3, ![32, 2048, 512]⟩ : Shape).Idx → EReal)
      = Cert.ReferenceIdeal.Read.val_main_v6 (F := Ideal) a0 a1 := by
  unfold KerValue.embedded Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0
  rfl

/-- The kernel's transposed classifier weight is the reference's. -/
theorem classifierT_eq (a2 : (⟨Cert.KernelIdeal.S2x512, .f32⟩ : BufTy).Contents (Elt Ideal)) :
    (KerValue.classifierT a2 : (⟨2, ![512, 2]⟩ : Shape).Idx → EReal) = Cert.ReferenceIdeal.Read.val_main_v22 (F := Ideal) a2 := by
  unfold KerValue.classifierT Cert.ReferenceIdeal.Read.val_main_v22
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both runs end with the result array at `G` of the same three arrays. -/
theorem algebraic : Cert.algebraic_KernelIdeal_ReferenceIdeal := by
  intro m ρ m' ρ' _ hagree
  refine ⟨_, KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Ref.result_eq, (hagree c).1, (hagree c).2.1, (hagree c).2.2.1, (hagree c).2.2.2,
    ← embedded_eq, ← classifierT_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
